-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x512x512 : Shape := ⟨4, ![32, 4, 512, 512]⟩
abbrev S_ : Shape := ⟨0, ![]⟩

class Facts : Prop where
  bcast_S_S32x4x512x512 : S_.BroadcastsInDim S32x4x512x512 (![] : Fin 0 → Fin S32x4x512x512.rank)
  reducesTo_S32x4x512x512_S_d0_1_2_3 : S32x4x512x512.ReducesTo [0, 1, 2, 3] S_
  h_S_ : 0 < S_.numel

variable [Facts]

def fn {F : FTy → Type} [FloatOps F] (main_arg0 : FVec F S32x4x512x512 .f32) (main_arg1 : FVec F S32x4x512x512 .f32) : IVec S_ 1 :=
  let main_v0 : FVec F S32x4x512x512 .f32 := Host.absf main_arg0
  let main_cst : FVec F S_ .f32 := constant S_ .f32 0x7F800000#32
  let main_v1 : FVec F S32x4x512x512 .f32 := broadcastInDim S32x4x512x512 ![] bcast_S_S32x4x512x512 main_cst
  let main_v2 : IVec S32x4x512x512 1 := cmpf .olt main_v0 main_v1
  let main_c : IVec S_ 1 := constantI S_ 1 1#1
  let main_v3 : IVec S_ 1 := (fun x v => Host.reduce IntOp.andi x v reducesTo_S32x4x512x512_S_d0_1_2_3 h_S_) main_v2 main_c
  let main_v4 : FVec F S32x4x512x512 .f32 := Host.absf main_arg1
  let main_cst_0 : FVec F S_ .f32 := constant S_ .f32 0x7F800000#32
  let main_v5 : FVec F S32x4x512x512 .f32 := broadcastInDim S32x4x512x512 ![] bcast_S_S32x4x512x512 main_cst_0
  let main_v6 : IVec S32x4x512x512 1 := cmpf .olt main_v4 main_v5
  let main_c_1 : IVec S_ 1 := constantI S_ 1 1#1
  let main_v7 : IVec S_ 1 := (fun x v => Host.reduce IntOp.andi x v reducesTo_S32x4x512x512_S_d0_1_2_3 h_S_) main_v6 main_c_1
  let main_v8 : IVec S_ 1 := andi main_v3 main_v7
  main_v8
-- ==== Kernel.lean ====
abbrev S32x4x512x512 : Shape := ⟨4, ![32, 4, 512, 512]⟩
abbrev S32x1x128 : Shape := ⟨3, ![32, 1, 128]⟩
abbrev S1x4x512x512 : Shape := ⟨4, ![1, 4, 512, 512]⟩
abbrev S1x1x128 : Shape := ⟨3, ![1, 1, 128]⟩
abbrev S1x4 : Shape := ⟨2, ![1, 4]⟩
abbrev S1x4x1x1 : Shape := ⟨4, ![1, 4, 1, 1]⟩
abbrev S1x1x4x512x512 : Shape := ⟨5, ![1, 1, 4, 512, 512]⟩
abbrev S1 : Shape := ⟨1, ![1]⟩
abbrev S1x1x1x1x1 : Shape := ⟨5, ![1, 1, 1, 1, 1]⟩
abbrev S32x1x1 : Shape := ⟨3, ![32, 1, 1]⟩
abbrev S32 : Shape := ⟨1, ![32]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S32x4x512x512, .f32⟩
  | .hbm, ⟨1, _⟩ => ⟨S32x4x512x512, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x4x512x512, .f32⟩
  | .local _ .vmem, ⟨1, _⟩ => ⟨S1x4x512x512, .f32⟩
  | .local _ .vmem, ⟨2, _⟩ => ⟨S1x4x512x512, .f32⟩
  | .local _ .vmem, ⟨3, _⟩ => ⟨S1x4x512x512, .f32⟩
  | .local _ .vmem, ⟨4, _⟩ => ⟨S1x1x128, .f32⟩
  | .local _ .vmem, ⟨5, _⟩ => ⟨S1x1x128, .f32⟩
  | _, _ => ⟨S32x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4x512x512_S1x4x512x512_0_0_0_0 : ∀ a, (![0, 0, 0, 0] : Fin 4 → Nat) a + S1x4x512x512.size a ≤ S1x4x512x512.size a
  h_S1x4x512x512 : 0 < S1x4x512x512.numel
  reduces_S1x4x512x512_S1x4 : S1x4x512x512.Reduces [2, 3] S1x4
  shapeCasts_S1x4_S1x4x1x1 : S1x4.ShapeCasts S1x4x1x1
  broadcasts_S1x4x1x1_S1x4x512x512 : S1x4x1x1.Broadcasts S1x4x512x512
  shapeCasts_S1x4x512x512_S1x1x4x512x512 : S1x4x512x512.ShapeCasts S1x1x4x512x512
  reduces_S1x1x4x512x512_S1 : S1x1x4x512x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  inb_S1x1x128_S1x1x128_0_0_0 : ∀ a, (![0, 0, 0] : Fin 3 → Nat) a + S1x1x128.size a ≤ S1x1x128.size a
  h_S1x1x128 : 0 < S1x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S32x4x512x512.size a
  hwx0_0 : ∀ i : grid0.Coords, EltTy.bits .f32 = 32 ∨ (Rect.block (s := S32x4x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512x512.size a ≤ S32x4x512x512.size a
  hwx0_1 : ∀ i : grid0.Coords, EltTy.bits .f32 = 32 ∨ (Rect.block (s := S32x4x512x512) S1x4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4x512x512 : Shape := ⟨4, ![32, 4, 512, 512]⟩
abbrev S_ : Shape := ⟨0, ![]⟩
abbrev S32x4 : Shape := ⟨2, ![32, 4]⟩
abbrev S32x4x1x1 : Shape := ⟨4, ![32, 4, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S32x4x512x512, .f32⟩
  | .hbm, ⟨1, _⟩ => ⟨S32x4x512x512, .f32⟩
  | .hbm, ⟨2, _⟩ => ⟨S_, .f32⟩
  | .hbm, ⟨3, _⟩ => ⟨S32x4x512x512, .f32⟩
  | .hbm, ⟨4, _⟩ => ⟨S32x4x512x512, .f32⟩
  | .hbm, ⟨5, _⟩ => ⟨S32x4x512x512, .f32⟩
  | .hbm, ⟨6, _⟩ => ⟨S_, .f32⟩
  | .hbm, ⟨7, _⟩ => ⟨S32x4x512x512, .f32⟩
  | .hbm, ⟨8, _⟩ => ⟨S32x4x512x512, .f32⟩
  | .hbm, ⟨9, _⟩ => ⟨S_, .f32⟩
  | .hbm, ⟨10, _⟩ => ⟨S32x4x512x512, .f32⟩
  | .hbm, ⟨11, _⟩ => ⟨S32x4x512x512, .f32⟩
  | .hbm, ⟨12, _⟩ => ⟨S_, .f32⟩
  | .hbm, ⟨13, _⟩ => ⟨S32x4, .f32⟩
  | .hbm, ⟨14, _⟩ => ⟨S32x4x512x512, .f32⟩
  | .hbm, ⟨15, _⟩ => ⟨S_, .f32⟩
  | .hbm, ⟨16, _⟩ => ⟨S32x4, .f32⟩
  | .hbm, ⟨17, _⟩ => ⟨S_, .f32⟩
  | .hbm, ⟨18, _⟩ => ⟨S32x4, .f32⟩
  | .hbm, ⟨19, _⟩ => ⟨S32x4, .f32⟩
  | .hbm, ⟨20, _⟩ => ⟨S32x4, .f32⟩
  | .hbm, ⟨21, _⟩ => ⟨S_, .f32⟩
  | .hbm, ⟨22, _⟩ => ⟨S32x4x512x512, .f32⟩
  | .hbm, ⟨23, _⟩ => ⟨S32x4x512x512, .f32⟩
  | .hbm, ⟨24, _⟩ => ⟨S_, .f32⟩
  | .hbm, ⟨25, _⟩ => ⟨S32x4, .f32⟩
  | .hbm, ⟨26, _⟩ => ⟨S_, .f32⟩
  | .hbm, ⟨27, _⟩ => ⟨S32x4x512x512, .f32⟩
  | .hbm, ⟨28, _⟩ => ⟨S32x4x512x512, .f32⟩
  | .hbm, ⟨29, _⟩ => ⟨S32x4x512x512, .f32⟩
  | .hbm, ⟨30, _⟩ => ⟨S_, .f32⟩
  | .hbm, ⟨31, _⟩ => ⟨S32x4, .f32⟩
  | .hbm, ⟨32, _⟩ => ⟨S_, .f32⟩
  | .hbm, ⟨33, _⟩ => ⟨S32x4, .f32⟩
  | .hbm, ⟨34, _⟩ => ⟨S32x4, .f32⟩
  | .hbm, ⟨35, _⟩ => ⟨S32x4, .f32⟩
  | .hbm, ⟨36, _⟩ => ⟨S32x4x1x1, .f32⟩
  | .hbm, ⟨37, _⟩ => ⟨S32x4x1x1, .f32⟩
  | .hbm, ⟨38, _⟩ => ⟨S32x4x512x512, .f32⟩
  | .hbm, ⟨39, _⟩ => ⟨S32x4x512x512, .f32⟩
  | .hbm, ⟨40, _⟩ => ⟨S32x4x512x512, .f32⟩
  | .hbm, ⟨41, _⟩ => ⟨S32x4x512x512, .f32⟩
  | .hbm, ⟨42, _⟩ => ⟨S_, .f32⟩
  | .hbm, ⟨43, _⟩ => ⟨S32x4x512x512, .f32⟩
  | .hbm, ⟨44, _⟩ => ⟨S32x4x512x512, .f32⟩
  | .hbm, ⟨45, _⟩ => ⟨S32x4x512x512, .f32⟩
  | .hbm, ⟨46, _⟩ => ⟨S32x4x512x512, .f32⟩
  | .hbm, ⟨47, _⟩ => ⟨S32x4x512x512, .f32⟩
  | .hbm, ⟨48, _⟩ => ⟨S32x4x512x512, .f32⟩
  | .hbm, ⟨49, _⟩ => ⟨S32x4x512x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S32x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S32x4x512x512 : S_.BroadcastsInDim S32x4x512x512 (![] : Fin 0 → Fin S32x4x512x512.rank)
  reducesTo_S32x4x512x512_S32x4_d2_3 : S32x4x512x512.ReducesTo [2, 3] S32x4
  h_S_ : 0 < S_.numel
  bcast_S_S32x4 : S_.BroadcastsInDim S32x4 (![] : Fin 0 → Fin S32x4.rank)
  bcast_S32x4_S32x4x1x1_0_1 : S32x4.BroadcastsInDim S32x4x1x1 (![0, 1] : Fin 2 → Fin S32x4x1x1.rank)
  bcast_S32x4x1x1_S32x4x512x512_0_1_2_3 : S32x4x1x1.BroadcastsInDim S32x4x512x512 (![0, 1, 2, 3] : Fin 4 → Fin S32x4x512x512.rank)
  reducesTo_S32x4x512x512_S_d0_1_2_3 : S32x4x512x512.ReducesTo [0, 1, 2, 3] S_

variable [Facts₀]

class Facts : Prop extends Facts₀ where

variable [Facts]
-- ==== Proof.LibTotalSum.lean ====
/-
  General facts about TOTAL SUMS of arrays over the extended reals, at the exact ("ideal") reading of the operations.

  * a reshape (`shapeCast`) re-indexes an array along a bijection of index sets, so it keeps the sum over all indices;
  * an additive `multi_reduction` over any set of axes replaces each fibre of the projection by its sum, so it keeps the
    sum over all indices;
  * an array whose shape has every axis of size one has one index, and its value there is its sum over all indices;
  * a finite sum of (coercions of) reals is the coercion of the real sum, so where every term is a real, sums may be
    regrouped, negated and re-indexed as real sums.

  Together: a chain of additive reductions and reshapes ending in a one-element array computes the total sum of what it
  started from, whatever the order of the axes and the intermediate shapes.
-/
import Idealize.ShloMosaic.PureOps.Ideal.Laws

noncomputable section

namespace Cert.LibTotalSum

open Idealize.ShloMosaic

variable {φ : FTy}

/-- A reshape keeps the sum over all indices. -/
theorem sum_shapeCast {s t : Shape} (x : s.Idx → EReal) (h : s.ShapeCasts t) :
    ∑ j : t.Idx, shapeCast t x h j = ∑ i : s.Idx, x i := by
  unfold shapeCast
  exact Equiv.sum_comp (Shape.reshapeEquiv h) x

/-- An additive reduction over any axes keeps the sum over all indices: the fibres of the projection partition the source's
    indices. -/
theorem sum_multiReduction_add {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A shape whose axes all have size one has one index. -/
theorem idx_eq_of_size_one {t : Shape} (ht : ∀ b, t.size b = 1) (i j : t.Idx) : i = j :=
  funext fun b => Fin.ext (by have := (i b).isLt; have := (j b).isLt; have := ht b; omega)

/-- The value of a one-element array at its index is its sum over all indices. -/
theorem eq_sum_of_size_one {t : Shape} (ht : ∀ b, t.size b = 1) (v : t.Idx → EReal) (j : t.Idx) :
    v j = ∑ i : t.Idx, v i := by
  rw [Finset.sum_eq_single j (fun i _ hne => absurd (idx_eq_of_size_one ht i j) hne)
    (fun h => absurd (Finset.mem_univ j) h)]

/-- The coercion of a finite real sum. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- Where every term is a real, the sum is the coercion of the sum of the terms' real values. -/
theorem sum_eq_coe_sum {ι : Type*} (s : Finset ι) (f : ι → EReal) (r : ι → ℝ) (h : ∀ i ∈ s, f i = (r i : EReal)) :
    ∑ i ∈ s, f i = ((∑ i ∈ s, r i : ℝ) : EReal) := by
  rw [coe_sum]; exact Finset.sum_congr rfl h

end Cert.LibTotalSum

end
-- ==== Proof.KernelStages.lean ====
/-
  The kernel's arithmetic on one block, named stage by stage.

  A block is the [1, 4, 512, 512] slab of the two inputs belonging to one batch element: `x` (the level-set function)
  and `img`. On it the kernel forms
    H      = ½ · (1 + tanh (x / ε))                                  the smoothed step, entry by entry,
    mean w = (Σ_{h,w} w · img) / (Σ_{h,w} w + δ)                      per channel, spread back over the channel's plane,
    term w = w · (img − mean w)²,
    loss   = term H + term (1 − H),
  and returns the sum of `loss` over every entry of the block (through a reshape to [1, 1, 4, 512, 512], a sum over its
  last four axes, a reshape of the one-element result and the reading of its one entry). At the exact reading of the
  operations that last chain is the plain sum over the block's entries.
-/
import proofs.«116886_j67422396613173_2_alg».proof.Proof.Gen.KernelIdeal.Skeleton
import proofs.«116886_j67422396613173_2_alg».proof.Proof.LibTotalSum
import Idealize.ShloMosaic.PureOps.Ideal.Laws

noncomputable section

namespace Cert.KernelIdeal.Stages

open Idealize.ShloMosaic Cert.KernelIdeal Cert.KernelIdeal.Gen

/-- A block's worth of extended reals. -/
abbrev Blk := FVec Ideal S1x4x512x512 .f32

/-- The smoothed step `½ · (1 + tanh (x / ε))`, entry by entry. -/
def hea (x : Blk) : Blk :=
  mulf (broadcast S1x4x512x512 (Scalar.ofBits .f32 0x3F000000#32))
    (addf (broadcast S1x4x512x512 (Scalar.ofBits .f32 0x3F800000#32))
      (tanh (divf x (broadcast S1x4x512x512 (Scalar.ofBits .f32 0x3D4CCCCD#32)))))

/-- `1 − h`, entry by entry. -/
def comp (h : Blk) : Blk := subf (broadcast S1x4x512x512 (Scalar.ofBits .f32 0x3F800000#32)) h

/-- A channel's sum over its plane, kept as a [1, 4, 1, 1] array. -/
def planeSum (w : Blk) : FVec Ideal S1x4x1x1 .f32 :=
  shapeCast S1x4x1x1 (multiReduction .add [2, 3] S1x4 w 0x00000000#32 reduces_S1x4x512x512_S1x4 (.inl rfl) rfl)
    shapeCasts_S1x4_S1x4x1x1

/-- The weighted mean of `img` over each channel's plane, with weights `w` and the small `δ` added to the total weight,
    spread back over the plane. -/
def mean (w img : Blk) : Blk :=
  broadcastTo S1x4x512x512
    (divf (planeSum (mulf w img)) (addf (planeSum w) (broadcast S1x4x1x1 (Scalar.ofBits .f32 0x38D1B717#32))))
    broadcasts_S1x4x1x1_S1x4x512x512

/-- `w · (img − mean)²`, entry by entry. -/
def term (w img : Blk) : Blk := mulf w (mulf (subf img (mean w img)) (subf img (mean w img)))

/-- The loss of the block, entry by entry. -/
def loss (x img : Blk) : Blk := addf (term (hea x) img) (term (comp (hea x)) img)

/-- The body's one computed scalar is the stages above followed by the chain that sums every entry. -/
theorem pay_eq (x img : Vec Ideal S1x4x512x512 .f32) :
    k0_pay2 (F := Ideal) x img
      = extractAt ![0, 0, 0, 0, 0]
          (shapeCast S1x1x1x1x1
            (multiReduction .add [1, 2, 3, 4] S1
              (shapeCast S1x1x4x512x512 (loss x img) shapeCasts_S1x4x512x512_S1x1x4x512x512)
              0x00000000#32 reduces_S1x1x4x512x512_S1 (.inl rfl) rfl)
            shapeCasts_S1_S1x1x1x1x1)
          inpos_S1x1x1x1x1_p0_0_0_0_0 := rfl

/-- Every axis of the one-element shape has size one. -/
theorem unit_axes : ∀ b, S1x1x1x1x1.size b = 1 := by decide

/-- So the body's scalar is the sum of the block's loss over all its entries. -/
theorem pay_sum (x img : Vec Ideal S1x4x512x512 .f32) :
    k0_pay2 (F := Ideal) x img = ∑ y : S1x4x512x512.Idx, loss x img y := by
  rw [pay_eq]
  unfold extractAt
  refine (Cert.LibTotalSum.eq_sum_of_size_one unit_axes _ _).trans ?_
  refine (Cert.LibTotalSum.sum_shapeCast _ _).trans ?_
  refine (Cert.LibTotalSum.sum_multiReduction_add _ _ _ _ _).trans ?_
  exact Cert.LibTotalSum.sum_shapeCast _ _

end Cert.KernelIdeal.Stages

end
-- ==== Proof.LibFibreSum.lean ====
/-
  Sums over FIBRES, re-indexed along an embedding.

  A sum over the members of a finite type that satisfy a condition is unchanged when the members are renamed by an
  injective map whose image is exactly the members of a second finite type satisfying a second condition. This is the
  step between "the sum of a block's entries lying over one reduced index" and "the sum of the whole array's entries lying
  over the corresponding reduced index", when the block is the restriction of the array along an embedding of index sets.
-/
import Mathlib.Algebra.BigOperators.Group.Finset.Basic
import Mathlib.Data.Fintype.Basic

namespace Cert.LibFibreSum

/-- If `e` is injective, carries the members with `p` exactly onto the members with `q`, then summing `f ∘ e` over the
    former is summing `f` over the latter. -/
theorem sum_filter_emb {α β M : Type*} [Fintype α] [Fintype β] [AddCommMonoid M]
    (e : α → β) (p : α → Prop) (q : β → Prop) [DecidablePred p] [DecidablePred q] (f : β → M)
    (hinj : Function.Injective e) (hpq : ∀ a, p a ↔ q (e a)) (hsurj : ∀ b, q b → ∃ a, e a = b) :
    ∑ a ∈ Finset.univ.filter p, f (e a) = ∑ b ∈ Finset.univ.filter q, f b := by
  refine Finset.sum_bij (fun a _ => e a) ?_ ?_ ?_ ?_
  · intro a ha
    rw [Finset.mem_filter] at ha ⊢
    exact ⟨Finset.mem_univ _, (hpq a).mp ha.2⟩
  · intro a _ a' _ h
    exact hinj h
  · intro b hb
    rw [Finset.mem_filter] at hb
    obtain ⟨a, rfl⟩ := hsurj b hb.2
    exact ⟨a, Finset.mem_filter.mpr ⟨Finset.mem_univ _, (hpq a).mpr hb.2⟩, rfl⟩
  · intro a _
    rfl

end Cert.LibFibreSum
-- ==== Proof.BlockBridge.lean ====
/-
  One batch element's block against the whole arrays.

  Entry (0, c, h, w) of batch element `b`'s block of an array `A` of shape [32, 4, 512, 512] is `A (b, c, h, w)`: the block is
  the restriction of `A` along the embedding `emb b` of index sets. Every entry-by-entry operation commutes with
  that restriction. A sum over a channel's plane does too: the block's entries lying over channel `c` are carried by
  `emb b` one-to-one onto the array's entries lying over `(b, c)`, so the two sums have the same terms. Hence the kernel's
  per-entry loss on the block is the reference's per-entry loss on the whole arrays, read at the embedded index.
-/
import proofs.«116886_j67422396613173_2_alg».proof.Proof.KernelStages
import proofs.«116886_j67422396613173_2_alg».proof.Proof.Gen.ReferenceIdeal.Read
import proofs.«116886_j67422396613173_2_alg».proof.Proof.LibFibreSum
import Idealize.ShloMosaic.Lib.ValueIdx
import Idealize.ShloMosaic.Lib.Pipeline.Value

noncomputable section

namespace Cert.Bridge

open Idealize.ShloMosaic Idealize.ShloMosaic.ValueIdx Cert.KernelIdeal.Stages

/-- The block's shape and the arrays' shape. -/
abbrev KB : Shape := Cert.KernelIdeal.S1x4x512x512
abbrev RA : Shape := Cert.ReferenceIdeal.S32x4x512x512

/-- The shape facts of the two plane sums. -/
abbrev hK : KB.Reduces [2, 3] Cert.KernelIdeal.S1x4 := Cert.KernelIdeal.Gen.reduces_S1x4x512x512_S1x4
abbrev hR : RA.ReducesTo [2, 3] Cert.ReferenceIdeal.S32x4 := Cert.ReferenceIdeal.Gen.reducesTo_S32x4x512x512_S32x4_d2_3

/-! ## The embedding of a block's indices -/

/-- Entry `(0, c, h, w)` of block `b` sits at `(b, c, h, w)` of the array. -/
def emb (b : Fin 32) (y : KB.Idx) : RA.Idx :=
  ix4 (n0 := 32) (n1 := 4) (n2 := 512) (n3 := 512) b ⟨(y 1).val, (y 1).isLt⟩ ⟨(y 2).val, (y 2).isLt⟩ ⟨(y 3).val, (y 3).isLt⟩

/-- The restriction of an array to block `b`. -/
def blk (b : Fin 32) (A : RA.Idx → EReal) : KB.Idx → EReal := fun y => A (emb b y)

theorem emb_val0 (b : Fin 32) (y : KB.Idx) : (emb b y 0).val = b.val := rfl
theorem emb_val1 (b : Fin 32) (y : KB.Idx) : (emb b y 1).val = (y 1).val := rfl
theorem emb_val2 (b : Fin 32) (y : KB.Idx) : (emb b y 2).val = (y 2).val := rfl
theorem emb_val3 (b : Fin 32) (y : KB.Idx) : (emb b y 3).val = (y 3).val := rfl

/-- A block's first coordinate is zero. -/
theorem kb_val0 (y : KB.Idx) : (y 0).val = 0 := by
  have h : (y 0).val < 1 := (y 0).isLt
  omega

/-- Two block indices with equal coordinates are equal. -/
theorem kb_ext (y y' : KB.Idx) (h1 : (y 1).val = (y' 1).val) (h2 : (y 2).val = (y' 2).val) (h3 : (y 3).val = (y' 3).val) :
    y = y' := by
  funext a
  match a with
  | ⟨0, _⟩ => exact Fin.ext ((kb_val0 y).trans (kb_val0 y').symm)
  | ⟨1, _⟩ => exact Fin.ext h1
  | ⟨2, _⟩ => exact Fin.ext h2
  | ⟨3, _⟩ => exact Fin.ext h3

/-- Two array indices with equal coordinates are equal. -/
theorem ra_ext (i i' : RA.Idx) (h0 : (i 0).val = (i' 0).val) (h1 : (i 1).val = (i' 1).val) (h2 : (i 2).val = (i' 2).val)
    (h3 : (i 3).val = (i' 3).val) : i = i' := by
  funext a
  match a with
  | ⟨0, _⟩ => exact Fin.ext h0
  | ⟨1, _⟩ => exact Fin.ext h1
  | ⟨2, _⟩ => exact Fin.ext h2
  | ⟨3, _⟩ => exact Fin.ext h3

theorem emb_injective (b : Fin 32) : Function.Injective (emb b) := fun y y' h =>
  kb_ext y y' (congrArg (fun i : RA.Idx => (i 1).val) h) (congrArg (fun i : RA.Idx => (i 2).val) h)
    (congrArg (fun i : RA.Idx => (i 3).val) h)

/-- The block index under an array index. -/
def under (i : RA.Idx) : KB.Idx :=
  ix4 (n0 := 1) (n1 := 4) (n2 := 512) (n3 := 512) 0 ⟨(i 1).val, (i 1).isLt⟩ ⟨(i 2).val, (i 2).isLt⟩ ⟨(i 3).val, (i 3).isLt⟩

theorem emb_under (b : Fin 32) (i : RA.Idx) (h : (i 0).val = b.val) : emb b (under i) = i :=
  ra_ext _ _ h.symm rfl rfl rfl

/-! ## The indices a plane sum runs over -/

/-- Two rank-two indices with equal coordinates are equal. -/
theorem idx2_ext {n0 n1 : Nat} (j j' : (⟨2, ![n0, n1]⟩ : Shape).Idx) (h0 : (j 0).val = (j' 0).val)
    (h1 : (j 1).val = (j' 1).val) : j = j' := by
  funext a
  match a with
  | ⟨0, _⟩ => exact Fin.ext h0
  | ⟨1, _⟩ => exact Fin.ext h1

theorem dropK_val0 (y : KB.Idx) : (hK.drop y 0).val = (y 0).val := hK.drop_apply_val_of_eq y 0 0
theorem dropK_val1 (y : KB.Idx) : (hK.drop y 1).val = (y 1).val := hK.drop_apply_val_of_eq y 1 1
theorem dropR_val0 (i : RA.Idx) : (hR.drop i 0).val = (i 0).val := hR.drop_apply_val_of_eq i 0 0
theorem dropR_val1 (i : RA.Idx) : (hR.drop i 1).val = (i 1).val := hR.drop_apply_val_of_eq i 1 1

/-- Two block entries lie over the same channel iff their channel coordinates agree. -/
theorem dropK_eq_iff (y y' : KB.Idx) : hK.drop y = hK.drop y' ↔ (y 1).val = (y' 1).val := by
  constructor
  · intro h
    exact (dropK_val1 y).symm.trans ((congrArg (fun j : Cert.KernelIdeal.S1x4.Idx => (j 1).val) h).trans (dropK_val1 y'))
  · intro h1
    exact idx2_ext _ _ ((dropK_val0 y).trans (((kb_val0 y).trans (kb_val0 y').symm).trans (dropK_val0 y').symm))
      ((dropK_val1 y).trans (h1.trans (dropK_val1 y').symm))

/-- Two array entries lie over the same (batch, channel) pair iff those two coordinates agree. -/
theorem dropR_eq_iff (i i' : RA.Idx) : hR.drop i = hR.drop i' ↔ (i 0).val = (i' 0).val ∧ (i 1).val = (i' 1).val := by
  constructor
  · intro h
    exact ⟨(dropR_val0 i).symm.trans ((congrArg (fun j : Cert.ReferenceIdeal.S32x4.Idx => (j 0).val) h).trans (dropR_val0 i')),
      (dropR_val1 i).symm.trans ((congrArg (fun j : Cert.ReferenceIdeal.S32x4.Idx => (j 1).val) h).trans (dropR_val1 i'))⟩
  · rintro ⟨h0, h1⟩
    exact idx2_ext _ _ ((dropR_val0 i).trans (h0.trans (dropR_val0 i').symm))
      ((dropR_val1 i).trans (h1.trans (dropR_val1 i').symm))

/-- THE PLANE SUM OF A BLOCK is the plane sum of the array over the embedded (batch, channel) pair: the embedding carries
    the block's entries over channel `c` one-to-one onto the array's entries over `(b, c)`. -/
theorem planeSum_blk (b : Fin 32) (A : RA.Idx → EReal) (y : KB.Idx) :
    Ideal.reduceAdd hK (blk b A) (hK.drop y)
      = ∑ i ∈ Finset.univ.filter (fun i => hR.drop i = hR.drop (emb b y)), A i := by
  unfold Ideal.reduceAdd
  show ∑ i ∈ Finset.univ.filter (fun i => hK.drop i = hK.drop y), A (emb b i) = _
  refine Cert.LibFibreSum.sum_filter_emb (emb b) _ _ A (emb_injective b) (fun i => ?_) (fun i hi => ?_)
  · rw [dropK_eq_iff, dropR_eq_iff]
    exact ⟨fun h => ⟨rfl, h⟩, fun h => h.2⟩
  · exact ⟨under i, emb_under b i ((dropR_eq_iff _ _).mp hi).1⟩

/-! ## The kernel's region mean at an entry -/

/-- The [1, 4, 1, 1] index under a block entry: its channel, zeros elsewhere. -/
def unitIdx (y : KB.Idx) : Cert.KernelIdeal.S1x4x1x1.Idx :=
  ix4 (n0 := 1) (n1 := 4) (n2 := 1) (n3 := 1) 0 ⟨(y 1).val, (y 1).isLt⟩ 0 0

/-- A channel's kept-axes sum, read under an entry, is the sum over the entries of that channel. -/
theorem planeSum_apply (w : Blk) (y : KB.Idx) : planeSum w (unitIdx y) = Ideal.reduceAdd hK w (hK.drop y) := by
  unfold planeSum
  refine (shapeCast_apply _ _ (unitIdx y) (hK.drop y) ?_).trans rfl
  refine (Shape.rowMajor_val_two (hK.drop y)).trans (Eq.trans ?_ (Shape.rowMajor_val_four (unitIdx y)).symm)
  have h0 := dropK_val0 y
  have h1 := dropK_val1 y
  have hz := kb_val0 y
  show (hK.drop y 0).val * 4 + (hK.drop y 1).val = ((0 * 4 + (y 1).val) * 1 + 0) * 1 + 0
  omega

/-- The kernel's weighted mean at an entry: the channel's weighted sum over the channel's total weight plus `δ`. -/
theorem mean_apply (w img : Blk) (y : KB.Idx) :
    mean w img y = Ideal.div (Ideal.reduceAdd hK (mulf w img) (hK.drop y))
      (Ideal.reduceAdd hK w (hK.drop y) + Ideal.ofBits .f32 0x38D1B717#32) := by
  unfold mean
  refine (broadcastTo_apply _ _ y (unitIdx y) (fun a => ?_)).trans ?_
  · match a with
    | ⟨0, _⟩ => show (0 : ℕ) = if (1 : ℕ) = 1 then 0 else (y 0).val; rw [if_pos rfl]
    | ⟨1, _⟩ => show (y 1).val = if (4 : ℕ) = 1 then 0 else (y 1).val; rw [if_neg (by decide)]
    | ⟨2, _⟩ => show (0 : ℕ) = if (1 : ℕ) = 1 then 0 else (y 2).val; rw [if_pos rfl]
    | ⟨3, _⟩ => show (0 : ℕ) = if (1 : ℕ) = 1 then 0 else (y 3).val; rw [if_pos rfl]
  · show Ideal.div (planeSum (mulf w img) (unitIdx y)) (planeSum w (unitIdx y) + Ideal.ofBits .f32 0x38D1B717#32) = _
    rw [planeSum_apply, planeSum_apply]

/-! ## The reference's region means at an entry -/

section Reference

open Cert.ReferenceIdeal.Read

/-- An array of the reference's shape. -/
abbrev Arr := (⟨RA, .f32⟩ : BufTy).Contents (Elt Ideal)

/-- The reference's sum over the planes, started from zero, at a (batch, channel) pair: the sum over that pair's entries. -/
theorem host_planeSum (A : Arr) (j : Cert.ReferenceIdeal.S32x4.Idx) :
    Host.reduceAdd (F := Ideal) (φ := .f32) A (constant (F := Ideal) Cert.ReferenceIdeal.S_ .f32 0x00000000#32) hR Cert.ReferenceIdeal.Gen.h_S_ j
      = ∑ i ∈ Finset.univ.filter (fun i => hR.drop i = j), A i := by
  show Ideal.hostReduceAdd hR A (Ideal.ofBits .f32 0x00000000#32) j = _
  unfold Ideal.hostReduceAdd
  rw [Ideal.ofBits_zero_f32, zero_add]

theorem ref_idx1 (i : RA.Idx) : idx_main_v23 (idx_main_v25 i) = hR.drop i :=
  idx2_ext _ _ ((show (idx_main_v23 (idx_main_v25 i) 0).val = (i 0).val from rfl).trans (dropR_val0 i).symm)
    ((show (idx_main_v23 (idx_main_v25 i) 1).val = (i 1).val from rfl).trans (dropR_val1 i).symm)

theorem ref_idx2 (i : RA.Idx) : idx_main_v24 (idx_main_v31 i) = hR.drop i :=
  idx2_ext _ _ ((show (idx_main_v24 (idx_main_v31 i) 0).val = (i 0).val from rfl).trans (dropR_val0 i).symm)
    ((show (idx_main_v24 (idx_main_v31 i) 1).val = (i 1).val from rfl).trans (dropR_val1 i).symm)

/-- The reference's first region mean, spread back, at an entry. -/
theorem ref_mean1 (X I : Arr) (i : RA.Idx) :
    val_main_v25 (F := Ideal) X I i
      = Ideal.div (∑ i' ∈ Finset.univ.filter (fun i' => hR.drop i' = hR.drop i), val_main_v8 (F := Ideal) X I i')
          ((∑ i' ∈ Finset.univ.filter (fun i' => hR.drop i' = hR.drop i), val_main_v6 (F := Ideal) X i')
            + Ideal.ofBits .f32 0x38D1B717#32) := by
  rw [val_main_v25_apply, val_main_v23_apply, val_main_v12_apply, val_main_v11_apply, ref_idx1]
  unfold val_main_v9 val_main_v7 val_main_cst_3 val_main_cst_2
  rw [host_planeSum, host_planeSum]
  rfl

/-- The reference's second region mean, spread back, at an entry. -/
theorem ref_mean2 (X I : Arr) (i : RA.Idx) :
    val_main_v31 (F := Ideal) X I i
      = Ideal.div (∑ i' ∈ Finset.univ.filter (fun i' => hR.drop i' = hR.drop i), val_main_v18 (F := Ideal) X I i')
          ((∑ i' ∈ Finset.univ.filter (fun i' => hR.drop i' = hR.drop i), val_main_v14 (F := Ideal) X i')
            + Ideal.ofBits .f32 0x38D1B717#32) := by
  rw [val_main_v31_apply, val_main_v24_apply, val_main_v22_apply, val_main_v21_apply, ref_idx2]
  unfold val_main_v19 val_main_v15 val_main_cst_8 val_main_cst_6
  rw [host_planeSum, host_planeSum]
  rfl

/-! ## Entry by entry, the block's stages are the reference's at the embedded index -/

theorem hea_blk (b : Fin 32) (X : Arr) (y : KB.Idx) : hea (blk b X) y = val_main_v6 (F := Ideal) X (emb b y) := by
  rw [val_main_v6_apply, val_main_v4_apply, val_main_v2_apply, val_main_v1_apply]
  rfl

theorem comp14_blk (b : Fin 32) (X : Arr) (y : KB.Idx) : comp (hea (blk b X)) y = val_main_v14 (F := Ideal) X (emb b y) := by
  rw [val_main_v14_apply, ← hea_blk]
  rfl

theorem comp17_blk (b : Fin 32) (X : Arr) (y : KB.Idx) : comp (hea (blk b X)) y = val_main_v17 (F := Ideal) X (emb b y) := by
  rw [val_main_v17_apply, ← hea_blk]
  rfl

theorem comp30_blk (b : Fin 32) (X : Arr) (y : KB.Idx) : comp (hea (blk b X)) y = val_main_v30 (F := Ideal) X (emb b y) := by
  rw [val_main_v30_apply, ← hea_blk]
  rfl

theorem hea_eq (b : Fin 32) (X : Arr) : hea (blk b X) = blk b (val_main_v6 (F := Ideal) X) := funext (hea_blk b X)

theorem heaImg_eq (b : Fin 32) (X I : Arr) : mulf (hea (blk b X)) (blk b I) = blk b (val_main_v8 (F := Ideal) X I) :=
  funext fun y => by
    show FloatOps.mulf (hea (blk b X) y) (I (emb b y)) = val_main_v8 (F := Ideal) X I (emb b y)
    rw [val_main_v8_apply, hea_blk]

theorem comp_eq (b : Fin 32) (X : Arr) : comp (hea (blk b X)) = blk b (val_main_v14 (F := Ideal) X) := funext (comp14_blk b X)

theorem compImg_eq (b : Fin 32) (X I : Arr) : mulf (comp (hea (blk b X))) (blk b I) = blk b (val_main_v18 (F := Ideal) X I) :=
  funext fun y => by
    show FloatOps.mulf (comp (hea (blk b X)) y) (I (emb b y)) = val_main_v18 (F := Ideal) X I (emb b y)
    rw [val_main_v18_apply, comp17_blk]

theorem mean1_blk (b : Fin 32) (X I : Arr) (y : KB.Idx) :
    mean (hea (blk b X)) (blk b I) y = val_main_v25 (F := Ideal) X I (emb b y) := by
  rw [mean_apply, ref_mean1, heaImg_eq, hea_eq, planeSum_blk, planeSum_blk]

theorem mean2_blk (b : Fin 32) (X I : Arr) (y : KB.Idx) :
    mean (comp (hea (blk b X))) (blk b I) y = val_main_v31 (F := Ideal) X I (emb b y) := by
  rw [mean_apply, ref_mean2, compImg_eq, comp_eq, planeSum_blk, planeSum_blk]

/-- THE BLOCK'S LOSS at an entry is the reference's loss at the embedded index. -/
theorem loss_blk (b : Fin 32) (X I : Arr) (y : KB.Idx) :
    loss (blk b X) (blk b I) y = val_main_v35 (F := Ideal) X I (emb b y) := by
  rw [val_main_v35_apply, val_main_v28_apply, val_main_v34_apply, val_main_v27_apply, val_main_v33_apply,
    val_main_v26_apply, val_main_v32_apply, ← mean1_blk, ← mean2_blk, ← comp30_blk, ← hea_blk]
  rfl

end Reference

end Cert.Bridge

end
-- ==== Proof.Consts.lean ====
/-
  The float constants of the final quotient, as the reals their bit patterns denote at the exact reading.

  The kernel's host code multiplies 32.0, 4.0, 512.0 and 512.0 and divides by the product; the reference divides by the
  single constant 33554432.0 = 2^25. All five are exact binary values, and 32 · 4 · 512 · 512 = 33554432.
-/
import Idealize.ShloMosaic.PureOps.Ideal

noncomputable section

namespace Cert.Consts

open Idealize.ShloMosaic

theorem ofBits_32 : Ideal.ofBits .f32 0x42000000#32 = ((32 : ℝ) : EReal) := by
  simp [Ideal.ofBits, Ideal.ieee, -EReal.coe_mul]; norm_num

theorem ofBits_4 : Ideal.ofBits .f32 0x40800000#32 = ((4 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_count : Ideal.ofBits .f32 0x4C000000#32 = ((33554432 : ℝ) : EReal) := by
  simp [Ideal.ofBits, Ideal.ieee, -EReal.coe_mul]; norm_num

/-- The product of the four extents is the element count. -/
theorem count_eq :
    Ideal.ofBits .f32 0x42000000#32 * Ideal.ofBits .f32 0x40800000#32 * Ideal.ofBits .f32 0x44000000#32
        * Ideal.ofBits .f32 0x44000000#32
      = Ideal.ofBits .f32 0x4C000000#32 := by
  rw [ofBits_32, ofBits_4, ofBits_512, ofBits_count, ← EReal.coe_mul, ← EReal.coe_mul, ← EReal.coe_mul]
  norm_num

end Cert.Consts

end
-- ==== Proof.Total.lean ====
/-
  From the per-block totals to the mean loss.

  The kernel writes, for each batch element `b`, the total of that block's loss into every lane of row `b` of a
  [32, 1, 128] array; the host code then takes lane 0 of every row, sums the 32 numbers and divides by 32 · 4 · 512 · 512.
  A pair (batch element, block entry) names exactly one entry of the [32, 4, 512, 512] arrays, so the sum over the batch of
  the blocks' totals is the sum over all entries, in whatever order: the reference's one sum over all four axes. The two
  divisors are the same number.
-/
import proofs.«116886_j67422396613173_2_alg».proof.Proof.BlockBridge
import proofs.«116886_j67422396613173_2_alg».proof.Proof.Consts

noncomputable section

namespace Cert.Bridge

open Idealize.ShloMosaic Idealize.ShloMosaic.ValueIdx Cert.KernelIdeal.Stages Cert.ReferenceIdeal.Read

/-- The shapes of the host code after the kernel. -/
abbrev SP : Shape := Cert.KernelIdeal.S32x1x128
abbrev S3 : Shape := Cert.KernelIdeal.S32x1x1
abbrev S1' : Shape := Cert.KernelIdeal.S32
abbrev S0 : Shape := Cert.KernelIdeal.S_

/-- The row of an index of the lane-0 column, as a batch element. -/
def rowOf (j : S3.Idx) : Fin 32 := ⟨(j 0).val, (j 0).isLt⟩

/-- Block `b`'s total loss. -/
def partialSum (X I : Arr) (b : Fin 32) : EReal := ∑ y : KB.Idx, loss (blk b X) (blk b I) y

/-- It is the sum of the reference's per-entry loss over batch element `b`'s entries. -/
theorem partialSum_eq (X I : Arr) (b : Fin 32) :
    partialSum X I b = ∑ y : KB.Idx, val_main_v35 (F := Ideal) X I (emb b y) :=
  Finset.sum_congr rfl fun y _ => loss_blk b X I y

/-- Two indices of the lane-0 column in the same row are equal. -/
theorem s3_ext (j j' : S3.Idx) (h0 : (j 0).val = (j' 0).val) : j = j' := by
  have h1 : (j 1).val = (j' 1).val := by
    have h : (j 1).val < 1 := (j 1).isLt
    have h' : (j' 1).val < 1 := (j' 1).isLt
    omega
  have h2 : (j 2).val = (j' 2).val := by
    have h : (j 2).val < 1 := (j 2).isLt
    have h' : (j' 2).val < 1 := (j' 2).isLt
    omega
  funext a
  match a with
  | ⟨0, _⟩ => exact Fin.ext h0
  | ⟨1, _⟩ => exact Fin.ext h1
  | ⟨2, _⟩ => exact Fin.ext h2

/-- A (row, block entry) pair names an entry of the arrays. -/
def pairIdx (p : S3.Idx × KB.Idx) : RA.Idx := emb (rowOf p.1) p.2

/-- Every entry of the arrays is named by exactly one pair. -/
theorem pairIdx_bijective : Function.Bijective pairIdx := by
  constructor
  · intro p p' h
    have e1 : p.1 = p'.1 := s3_ext _ _ (congrArg (fun i : RA.Idx => (i 0).val) h)
    have e2 : p.2 = p'.2 := kb_ext _ _ (congrArg (fun i : RA.Idx => (i 1).val) h) (congrArg (fun i : RA.Idx => (i 2).val) h)
      (congrArg (fun i : RA.Idx => (i 3).val) h)
    exact Prod.ext e1 e2
  · intro i
    exact ⟨(ix3 (n0 := 32) (n1 := 1) (n2 := 1) ⟨(i 0).val, (i 0).isLt⟩ 0 0, under i), ra_ext _ _ rfl rfl rfl rfl⟩

/-- THE SUM OVER THE BATCH of the per-block sums is the sum over all entries. -/
theorem sum_batches (L : RA.Idx → EReal) :
    ∑ j : S3.Idx, ∑ y : KB.Idx, L (emb (rowOf j) y) = ∑ i : RA.Idx, L i :=
  (Fintype.sum_prod_type' (fun (j : S3.Idx) (y : KB.Idx) => L (emb (rowOf j) y))).symm.trans
    (pairIdx_bijective.sum_comp L)

/-! ## The kernel's output array and the host code after it -/

/-- What the kernel leaves in its [32, 1, 128] output: row `b` holds block `b`'s total in every lane. -/
def partials (X I : Arr) : SP.Idx → EReal := fun i => partialSum X I ⟨(i 0).val, (i 0).isLt⟩

/-- The host code after the kernel, as a function of the kernel's output array. -/
def tail (P : FVec Ideal SP .f32) : FVec Ideal S0 .f32 :=
  Host.divf
    (Host.reduceAdd
      (shapeCast S1' (extractStridedSlice S3 ![0, 0, 0] P Cert.KernelIdeal.Gen.slices_S32x1x128_S32x1x1_0_0_0)
        Cert.KernelIdeal.Gen.shapeCasts_S32x1x1_S32)
      (constant (F := Ideal) S0 .f32 0x00000000#32) Cert.KernelIdeal.Gen.reducesTo_S32_S_d0 Cert.KernelIdeal.Gen.h_S_)
    (mulf (mulf (mulf (constant (F := Ideal) S0 .f32 0x42000000#32) (constant (F := Ideal) S0 .f32 0x40800000#32))
      (constant (F := Ideal) S0 .f32 0x44000000#32)) (constant (F := Ideal) S0 .f32 0x44000000#32))

/-- Lane 0 of row `j` of the output array. -/
theorem slice_apply (X I : Arr) (j : S3.Idx) :
    extractStridedSlice S3 ![0, 0, 0] (partials X I) Cert.KernelIdeal.Gen.slices_S32x1x128_S32x1x1_0_0_0 j
      = partialSum X I (rowOf j) := by
  refine (extractStridedSlice_apply _ _ _ j
    (ix3 (n0 := 32) (n1 := 1) (n2 := 128) ⟨(j 0).val, (j 0).isLt⟩ ⟨(j 1).val, (j 1).isLt⟩
      ⟨(j 2).val, Nat.lt_of_lt_of_le (j 2).isLt (by decide)⟩) (fun a => ?_)).trans rfl
  match a with
  | ⟨0, _⟩ => show (j 0).val = 0 + (j 0).val; omega
  | ⟨1, _⟩ => show (j 1).val = 0 + (j 1).val; omega
  | ⟨2, _⟩ => show (j 2).val = 0 + (j 2).val; omega

/-- THE KERNEL'S RESULT from its output array is the reference's result. -/
theorem tail_partials (X I : Arr) : tail (partials X I) = val_main_v37 (F := Ideal) X I := by
  funext i
  rw [val_main_v37_apply, val_main_v36_apply]
  show Ideal.div (Ideal.hostReduceAdd Cert.KernelIdeal.Gen.reducesTo_S32_S_d0
        (shapeCast S1' (extractStridedSlice S3 ![0, 0, 0] (partials X I) Cert.KernelIdeal.Gen.slices_S32x1x128_S32x1x1_0_0_0)
          Cert.KernelIdeal.Gen.shapeCasts_S32x1x1_S32) (Ideal.ofBits .f32 0x00000000#32) i)
      (Ideal.ofBits .f32 0x42000000#32 * Ideal.ofBits .f32 0x40800000#32 * Ideal.ofBits .f32 0x44000000#32
        * Ideal.ofBits .f32 0x44000000#32)
    = Ideal.div (Ideal.ofBits .f32 0x00000000#32 + ∑ j : RA.Idx, val_main_v35 (F := Ideal) X I j)
        (Ideal.ofBits .f32 0x4C000000#32)
  rw [Cert.Consts.count_eq, Ideal.hostReduceAdd_total _ (fun b => b.elim0), Cert.LibTotalSum.sum_shapeCast]
  refine congrArg (fun s => Ideal.div (Ideal.ofBits .f32 0x00000000#32 + s) (Ideal.ofBits .f32 0x4C000000#32)) ?_
  rw [← sum_batches]
  exact Finset.sum_congr rfl fun j _ => (slice_apply X I j).trans (partialSum_eq X I (rowOf j))

end Cert.Bridge

end
-- ==== Proof.KernelRun.lean ====
/-
  The kernel's run, read as a value.

  Grid point `t` stages batch element `t`'s block of each input, and writes back to row `t` of the [32, 1, 128] output the
  block's total loss in every lane. The 32 rows tile the output, so after the region the output array is `partials` of
  the two argument arrays; the host lines after the region then compute `tail` of it into the program's result.
-/
import proofs.«116886_j67422396613173_2_alg».proof.Proof.Gen.KernelIdeal.Frame
import proofs.«116886_j67422396613173_2_alg».proof.Proof.Total
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.Pipeline (Dat)
open Cert.Bridge

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the grid: point `t` takes block `(t, 0, 0, 0)` of each input and block `(t, 0, 0)` of the output. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- A grid point is a batch element. -/
theorem point_lt (t : Fin cfg0.N) : t.val < 32 := lt_of_lt_of_eq t.isLt N_0

def batchOf (t : Fin cfg0.N) : Fin 32 := ⟨t.val, point_lt t⟩

/-- Input window 0's block at point `t` is batch element `t`'s block of the first argument. -/
theorem iblk0_eq (c : Dev nD) (t : Fin cfg0.N) : iblk m c 0 t = blk (batchOf t) (V m c main_arg0) := by
  obtain ⟨e0, e1, e2, e3, -⟩ := idx_facts t
  funext y
  show V m c main_arg0 (((cfg0.win 0).blk t).view.emb y) = V m c main_arg0 (emb (batchOf t) y)
  refine congrArg (V m c main_arg0) (funext fun a => Fin.ext ?_)
  have hy : (y 0).val < 1 := (y 0).isLt
  match a with
  | ⟨0, _⟩ => show win0_0.index t (0 : Fin 4) * 1 + 1 * (y 0).val = t.val; omega
  | ⟨1, _⟩ => show win0_0.index t (1 : Fin 4) * 4 + 1 * (y 1).val = (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- Input window 1's block at point `t` is batch element `t`'s block of the second argument. -/
theorem iblk1_eq (c : Dev nD) (t : Fin cfg0.N) : iblk m c 1 t = blk (batchOf t) (V m c main_arg1) := by
  obtain ⟨-, -, -, -, e0, e1, e2, e3, -⟩ := idx_facts t
  funext y
  show V m c main_arg1 (((cfg0.win 1).blk t).view.emb y) = V m c main_arg1 (emb (batchOf t) y)
  refine congrArg (V m c main_arg1) (funext fun a => Fin.ext ?_)
  have hy : (y 0).val < 1 := (y 0).isLt
  match a with
  | ⟨0, _⟩ => show win0_1.index t (0 : Fin 4) * 1 + 1 * (y 0).val = t.val; omega
  | ⟨1, _⟩ => show win0_1.index t (1 : Fin 4) * 4 + 1 * (y 1).val = (y 1).val; omega
  | ⟨2, _⟩ => show win0_1.index t (2 : Fin 4) * 512 + 1 * (y 2).val = (y 2).val; omega
  | ⟨3, _⟩ => show win0_1.index t (3 : Fin 4) * 512 + 1 * (y 3).val = (y 3).val; omega

/-- Row `t` of `partials`, read through point `t`'s block of the output, is batch element `t`'s total in every lane. -/
theorem read_partials (X I : Arr) (t : Fin cfg0.N) :
    ((cfg0.win 2).blk t).view.read (Elt Ideal) (partials X I) = fun _ => partialSum X I (batchOf t) := by
  obtain ⟨-, -, -, -, -, -, -, -, e0, e1, e2⟩ := idx_facts t
  funext j
  show partials X I (((cfg0.win 2).blk t).view.emb j) = partialSum X I (batchOf t)
  unfold partials
  refine congrArg (partialSum X I) (Fin.ext ?_)
  show win0_2.index t (0 : Fin 3) * 1 + 1 * (j 0).val = t.val
  have hj : (j 0).val < 1 := (j 0).isLt
  omega

/-- The body's scalar at point `t` is batch element `t`'s total loss. -/
theorem pay_at (c : Dev nD) (t : Fin cfg0.N) :
    k0_pay2 (iblk m c 0 t) (iblk m c 1 t) = partialSum (V m c main_arg0) (V m c main_arg1) (batchOf t) := by
  rw [iblk0_eq, iblk1_eq, Cert.KernelIdeal.Stages.pay_sum]
  unfold partialSum
  rfl

/-- WHAT POINT `t` WRITES BACK is row `t` of `partials` of the argument arrays. -/
theorem flushed_eq (c : Dev nD) (t : Fin cfg0.N) :
    (dats m 0 c).flushed 2 t
      = ((cfg0.win 2).blk t).view.read (Elt Ideal) (partials (V m c main_arg0) (V m c main_arg1)) := by
  show (cfg0.win 2).cut (grid0.coords t) ((dats m 0 c).after 2 t) = _
  rw [after0_2, read_partials]
  unfold out0_2
  rw [View.canon_unit_zero hz3]
  simp only [View.ld_unit_zero (S := S1x4x512x512) hz4]
  rw [pay_at]
  generalize partialSum (V m c main_arg0) (V m c main_arg1) (batchOf t) = v
  rfl

/-- An index of the output is in point `t`'s block iff each coordinate is in the block's range on its axis. -/
theorem mem_blk (t : Fin cfg0.N) (i : S32x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- Every index of the output lies in the block of the point named by its row. -/
theorem cover (i : S32x1x128.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

/-- THE OUTPUT ARRAY after the region. -/
theorem final (c : Dev nD) :
    (dats m 0 c).arrAt 2 cfg0.N = partials (V m c main_arg0) (V m c main_arg1) :=
  (dats m 0 c).arrAt_eq_of_cover 2 _ (fun t _ => flushed_eq m c t) cover

/-! ## The host lines after the region, and the run -/

/-- THE PROGRAM'S RESULT after the host lines that follow the region: `tail` of `partials` of the argument arrays. -/
theorem result_eq (c : Dev nD) :
    Pipeline.afterTail₀ cfgs (dats m) 0 (V0 m) [hostOps1] c main_v7
      = tail (partials (m ((c : Thread nD τ).loc main_arg0)) (m ((c : Thread nD τ).loc main_arg1))) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v0)
      = partials (m ((c : Thread nD τ).loc main_arg0)) (m ((c : Thread nD τ).loc main_arg1)) :=
    (Pipeline.withArrays_arr spec0 launch0.win.arr_inj c _ _ 2).trans (final m c)
  rw [hw]
  rfl

/-- The result buffer is an unscoped buffer that is no window's array. -/
theorem result_mem_rest : main_v7 ∈ Pipeline.restRefs sig cfg0.spec :=
  Pipeline.mem_restRefs_of main_v7 rfl (by decide)

/-- Every weakly fair execution of the kernel's program terminates with its result at `tail (partials …)` of the
    argument arrays and the arguments unchanged. -/
theorem run : θ_run defs (onTc (τ := τ) (main (F := Ideal))) ⟨m, fun _ => 0, ρ⟩ fun r => ∀ c : Dev nD,
      r.2.mem ((c : Thread nD τ).loc main_v7)
        = tail (partials (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v7 result_mem_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.lean ====
/-
  A level-set region loss: the kernel's blockwise computation against the reference's whole-array one.

  With H = ½ · (1 + tanh (x / ε)) entry by entry, and for each (batch, channel) pair the two region means
    c₁ = (Σ_{h,w} H · img) / (Σ_{h,w} H + δ),     c₂ = (Σ_{h,w} (1 − H) · img) / (Σ_{h,w} (1 − H) + δ),
  both programs compute the mean over all 32 · 4 · 512 · 512 entries of  H · (img − c₁)² + (1 − H) · (img − c₂)².

  The reference forms the whole [32, 4, 512, 512] arrays and sums them at once. The kernel visits one batch element per grid
  point: on that element's [1, 4, 512, 512] block it forms the same entries (its plane sums range over the block's entries of
  one channel, which are exactly the array's entries of that batch element and channel), sums the block, and leaves the
  total in a row of a [32, 1, 128] array; the host code after it adds lane 0 of the 32 rows and divides by the product
  32 · 4 · 512 · 512. Over the extended reals addition is commutative and associative, so the sum over the batch of the
  blocks' totals is the sum over all entries, and the product of the four extents is the element count 2^25 the reference
  divides by. No property of the inputs is used: the two results agree at every extended-real input.

  The three runs: the word-level kernel and its idealization by the frame of their pipelined region; the reference by its
  straight-line run. The idealization rewrote no operation, so nothing is owed for it.
-/
import proofs.«116886_j67422396613173_2_alg».proof.Defs
import proofs.«116886_j67422396613173_2_alg».proof.Proof.Gen.Kernel
import proofs.«116886_j67422396613173_2_alg».proof.Proof.Gen.Kernel.Skeleton
import proofs.«116886_j67422396613173_2_alg».proof.Proof.Gen.Kernel.Launch
import proofs.«116886_j67422396613173_2_alg».proof.Proof.Gen.Kernel.Points
import proofs.«116886_j67422396613173_2_alg».proof.Proof.Gen.Kernel.Frame
import proofs.«116886_j67422396613173_2_alg».proof.Proof.Gen.KernelIdeal
import proofs.«116886_j67422396613173_2_alg».proof.Proof.Gen.KernelIdeal.Skeleton
import proofs.«116886_j67422396613173_2_alg».proof.Proof.Gen.KernelIdeal.Launch
import proofs.«116886_j67422396613173_2_alg».proof.Proof.Gen.KernelIdeal.Points
import proofs.«116886_j67422396613173_2_alg».proof.Proof.Gen.KernelIdeal.Frame
import proofs.«116886_j67422396613173_2_alg».proof.Proof.Gen.ReferenceIdeal
import proofs.«116886_j67422396613173_2_alg».proof.Proof.Gen.Pre_finite_inputs
import proofs.«116886_j67422396613173_2_alg».proof.Proof.Gen.ReferenceIdeal.Run
import proofs.«116886_j67422396613173_2_alg».proof.Proof.Gen.ReferenceIdeal.Read
import proofs.«116886_j67422396613173_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's program ends at the host tail of the per-block totals of its arguments, the reference at its composed
    term of arguments that agree with them; the two are one extended real. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  exact (Cert.Bridge.tail_partials _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
